-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v136) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 177
  | .vmem => 15
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S1600000x1, .f32⟩
  | 109 => ⟨S1600000x32, .f32⟩
  | 110 => ⟨S1600000x32, .f32⟩
  | 111 => ⟨S_, .f32⟩
  | 112 => ⟨S100000x32, .f32⟩
  | 113 => ⟨S1600000x1, .i32⟩
  | 114 => ⟨S100000x32, .f32⟩
  | 115 => ⟨S100000, .f32⟩
  | 116 => ⟨S100000x1, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S100000x32, .f32⟩
  | 124 => ⟨S_, .f32⟩
  | 125 => ⟨S1600000, .f32⟩
  | 126 => ⟨S_, .f32⟩
  | 127 => ⟨S100000, .f32⟩
  | _ => ⟨S100000x128, .f32⟩

abbrev hbmTy0_1 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S1600000x1, .f32⟩
  | 35 => ⟨S1600000x32, .f32⟩
  | 36 => ⟨S1600000x32, .f32⟩
  | 37 => ⟨S_, .f32⟩
  | 38 => ⟨S100000x32, .f32⟩
  | 39 => ⟨S1600000x1, .i32⟩
  | 40 => ⟨S100000x32, .f32⟩
  | 41 => ⟨S100000, .f32⟩
  | 42 => ⟨S100000x1, .f32⟩
  | 43 => ⟨S100000x32, .f32⟩
  | 44 => ⟨S100000x32, .f32⟩
  | 45 => ⟨S100000x32, .f32⟩
  | 46 => ⟨S1x32, .f32⟩
  | 47 => ⟨S100000x32, .f32⟩
  | 48 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_25 : Ref sig .tc := ⟨.hbm, 153, rfl⟩
abbrev main_v116 : Ref sig .tc := ⟨.hbm, 154, rfl⟩
abbrev main_v117 : Ref sig .tc := ⟨.hbm, 155, rfl⟩
abbrev main_c_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S10000x128_S128x64_S10000x64_1_0_0_1_n_n_wf : DotDims.WF S10000x128 S128x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S1600000x1, .f32⟩
  | 109 => ⟨S1600000x32, .f32⟩
  | 110 => ⟨S1600000x32, .f32⟩
  | 111 => ⟨S_, .f32⟩
  | 112 => ⟨S100000x32, .f32⟩
  | 113 => ⟨S1600000x1, .i32⟩
  | 114 => ⟨S100000x32, .f32⟩
  | 115 => ⟨S100000, .f32⟩
  | 116 => ⟨S100000x1, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S100000x32, .f32⟩
  | 124 => ⟨S_, .f32⟩
  | 125 => ⟨S1600000, .f32⟩
  | 126 => ⟨S_, .f32⟩
  | 127 => ⟨S100000, .f32⟩
  | _ => ⟨S100000x128, .f32⟩

abbrev hbmTy0_1 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S1600000x1, .f32⟩
  | 35 => ⟨S1600000x32, .f32⟩
  | 36 => ⟨S1600000x32, .f32⟩
  | 37 => ⟨S_, .f32⟩
  | 38 => ⟨S100000x32, .f32⟩
  | 39 => ⟨S1600000x1, .i32⟩
  | 40 => ⟨S100000x32, .f32⟩
  | 41 => ⟨S100000, .f32⟩
  | 42 => ⟨S100000x1, .f32⟩
  | 43 => ⟨S100000x32, .f32⟩
  | 44 => ⟨S100000x32, .f32⟩
  | 45 => ⟨S100000x32, .f32⟩
  | 46 => ⟨S1x32, .f32⟩
  | 47 => ⟨S100000x32, .f32⟩
  | 48 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_25 : Ref sig .tc := ⟨.hbm, 153, rfl⟩
abbrev main_v116 : Ref sig .tc := ⟨.hbm, 154, rfl⟩
abbrev main_v117 : Ref sig .tc := ⟨.hbm, 155, rfl⟩
abbrev main_c_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelNamed.lean ====
/-
  The idealized kernel program's run with its two result arrays NAMED. The program is three row-tiled matrix
  products among stretches of host operations; its buffer contents at each boundary are a fold from the launch
  memory (a stretch applies its operations in order; a region replaces its output array by what its write-backs
  leave and keeps every other buffer). Every weakly fair execution terminates without a fault, and in the final
  state each unscoped buffer holds the last boundary's contents: in particular the two results, which this
  statement reads beside the eight unchanged arguments.
-/
import proofs.«134702_j15539191677587_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting;
    the final state holds the two result arrays at the last boundary's contents and the arguments as launched. -/
theorem run_named : θ_run defs (onTc (τ := τ) (main (F := F))) ⟨m, fun _ => 0, ρ⟩ (fun r => ∀ c : Dev nD,
      r.2.mem ((c.tc : Thread nD τ).loc main_v92) = W8 m ρ c (Proc.devRef .tc main_v92)
      ∧ r.2.mem ((c.tc : Thread nD τ).loc main_v136) = W8 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v92 (by decide)),
       h c _ (mem_uc main_v136 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.StretchValues.lean ====
/-
  Each stretch of host operations of the idealized kernel program, read as a value. From ANY buffer contents `W` at
  the stretch's start, the buffer the stretch computes for the next matrix product (or for a result) is the
  corresponding stage of the reference's own chain of operations at the same arguments, provided the buffers the
  stretch reads hold the reference's stages. Both programs spell these host operations identically: the edge list's
  source and target rows; the degree as a scatter-add of ones at the targets, plus one; its inverse square root
  gathered at both ends of every edge and multiplied; the gathered source rows scaled by that norm and scatter-added
  at the targets; the self-loop term `h · dinv²`; the bias; and, after the first layer, the maximum with zero. So each
  statement is closed by applying the stretch's operations in order and unfolding the reference's stages.
-/
import proofs.«134702_j15539191677587_1_alg».proof.Proof.Gen.KernelIdeal.Launch
import proofs.«134702_j15539191677587_1_alg».proof.Proof.Gen.ReferenceIdeal.Read
import Idealize.ShloMosaic.Lib.StableHlo.Run

noncomputable section

namespace Cert.KernelIdeal.Stretch

open Idealize.ShloMosaic Idealize.ShloMosaic.TcCoe Idealize.SL.Sem Idealize.ShloMosaic.StableHlo
open Cert.KernelIdeal Cert.KernelIdeal.Gen
open Cert.ReferenceIdeal.Read

variable (W : Valuation τ sig (Elt Ideal))

/-- The first stretch slices row 0 of the edge list: the sources. -/
theorem src_rows (x1) (h : W (Proc.devRef .tc main_arg1) = x1) :
    after (hostOps0 (F := Ideal)) W (Proc.devRef .tc main_v1) = val_main_v1 (F := Ideal) x1 := by
  after_results_simp
  rw [h]; rfl

/-- The first stretch slices row 1 of the edge list: the targets. -/
theorem dst_rows (x1) (h : W (Proc.devRef .tc main_arg1) = x1) :
    after (hostOps0 (F := Ideal)) W (Proc.devRef .tc main_v3) = val_main_v3 (F := Ideal) x1 := by
  after_results_simp
  rw [h]; rfl

/-- The second stretch aggregates the first product over the graph and adds the bias: the first layer before its
    rectifier. -/
theorem layer1 (x0 x1 x2 x3)
    (h4 : W (Proc.devRef .tc main_v4) = val_main_v4 (F := Ideal) x0 x2)
    (h1 : W (Proc.devRef .tc main_v1) = val_main_v1 (F := Ideal) x1)
    (h3 : W (Proc.devRef .tc main_v3) = val_main_v3 (F := Ideal) x1)
    (hb : W (Proc.devRef .tc main_arg3) = x3) :
    after (hostOps1 (F := Ideal)) W (Proc.devRef .tc main_v47) = val_main_v47 (F := Ideal) x0 x1 x2 x3 := by
  after_results_simp
  rw [h4, h1, h3, hb]; rfl

/-! ## The rectifier

Its three operations (the constant zero, its broadcast, the maximum) are spelt over buffers typed by the VALUE they
hold; each such buffer's own type is that value's type, so carrying contents to the buffer and reading them back are
the identity. The three facts below say so once, on variables, and the stretch is then read without them. -/

/-- Contents carried to a buffer's own type and back are unchanged. -/
theorem ofBuf_toBuf {T : BufTy} (x : StableHlo.TRef sig T) (v : T.Contents (Elt Ideal)) : x.ofBuf (x.toBuf v) = v := by
  obtain ⟨r, hty, a, b⟩ := x
  subst hty
  rfl

/-- The rectified layer's buffer has the value's own type: carrying a value to it changes nothing. -/
theorem toBuf_rectified (p1 p2 p3) (v : (⟨S100000x64, .f32⟩ : BufTy).Contents (Elt Ideal)) :
    (StableHlo.TRef.of (T := ⟨S100000x64, .f32⟩) main_v48 p1 p2 p3 : StableHlo.TRef sig _).toBuf v = v := rfl

/-- So has the first layer's buffer: reading a value from it changes nothing. -/
theorem ofBuf_layer1 (p1 p2 p3) (v : (Proc.devRef (τ := τ) .tc main_v47).ty.Contents (Elt Ideal)) :
    (StableHlo.TRef.of (T := ⟨S100000x64, .f32⟩) main_v47 p1 p2 p3 : StableHlo.TRef sig _).ofBuf v = v := rfl

/-- The rectifier: the maximum with zero, entry by entry. -/
theorem rectified (x0 x1 x2 x3)
    (h : W (Proc.devRef .tc main_v47) = val_main_v47 (F := Ideal) x0 x1 x2 x3) :
    after (hostOps1_1 (F := Ideal)) W (Proc.devRef .tc main_v48) = val_main_v48 (F := Ideal) x0 x1 x2 x3 := by
  after_results_simp
  rw [h]
  simp only [ofBuf_toBuf]
  rw [toBuf_rectified, ofBuf_layer1]
  unfold val_main_v48 val_main_call0_v0 val_main_call0_cst
  generalize val_main_v47 (F := Ideal) x0 x1 x2 x3 = y
  rfl

/-- The stretch after the second product aggregates it over the graph and adds its bias: the first result. -/
theorem layer_mu (x0 x1 x2 x3 x4 x5)
    (h49 : W (Proc.devRef .tc main_v49) = val_main_v49 (F := Ideal) x0 x1 x2 x3 x4)
    (h1 : W (Proc.devRef .tc main_v1) = val_main_v1 (F := Ideal) x1)
    (h3 : W (Proc.devRef .tc main_v3) = val_main_v3 (F := Ideal) x1)
    (hb : W (Proc.devRef .tc main_arg5) = x5) :
    after (hostOps2 (F := Ideal)) W (Proc.devRef .tc main_v92) = val_main_v92 (F := Ideal) x0 x1 x2 x3 x4 x5 := by
  after_results_simp
  rw [h49, h1, h3, hb]; rfl

/-- The stretch after the third product aggregates it over the graph and adds its bias: the second result. -/
theorem layer_logstd (x0 x1 x2 x3 x6 x7)
    (h93 : W (Proc.devRef .tc main_v93) = val_main_v93 (F := Ideal) x0 x1 x2 x3 x6)
    (h1 : W (Proc.devRef .tc main_v1) = val_main_v1 (F := Ideal) x1)
    (h3 : W (Proc.devRef .tc main_v3) = val_main_v3 (F := Ideal) x1)
    (hb : W (Proc.devRef .tc main_arg7) = x7) :
    after (hostOps3 (F := Ideal)) W (Proc.devRef .tc main_v136) = val_main_v136 (F := Ideal) x0 x1 x2 x3 x6 x7 := by
  after_results_simp
  rw [h93, h1, h3, hb]; rfl

end Cert.KernelIdeal.Stretch

end
-- ==== Proof.StretchKeeps.lean ====
/-
  Which buffers each stretch of host operations of the idealized kernel program leaves alone. A stretch rewrites
  only the buffers its operations write; an argument, the two rows of the edge list once sliced, the rectified first
  layer and the first result are written once and only read afterwards, so from ANY contents `W` each of them holds
  after a later stretch what it held before it.
-/
import proofs.«134702_j15539191677587_1_alg».proof.Proof.Gen.KernelIdeal.Launch
import Idealize.ShloMosaic.Lib.StableHlo.Run

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-! ## The first stretch (slicing the edge list) writes no argument -/

theorem keep0_arg0 : after (hostOps0 (F := F)) W (Proc.devRef .tc main_arg0) = W (Proc.devRef .tc main_arg0) := by after_results_simp
theorem keep0_arg2 : after (hostOps0 (F := F)) W (Proc.devRef .tc main_arg2) = W (Proc.devRef .tc main_arg2) := by after_results_simp
theorem keep0_arg3 : after (hostOps0 (F := F)) W (Proc.devRef .tc main_arg3) = W (Proc.devRef .tc main_arg3) := by after_results_simp
theorem keep0_arg4 : after (hostOps0 (F := F)) W (Proc.devRef .tc main_arg4) = W (Proc.devRef .tc main_arg4) := by after_results_simp
theorem keep0_arg5 : after (hostOps0 (F := F)) W (Proc.devRef .tc main_arg5) = W (Proc.devRef .tc main_arg5) := by after_results_simp
theorem keep0_arg6 : after (hostOps0 (F := F)) W (Proc.devRef .tc main_arg6) = W (Proc.devRef .tc main_arg6) := by after_results_simp
theorem keep0_arg7 : after (hostOps0 (F := F)) W (Proc.devRef .tc main_arg7) = W (Proc.devRef .tc main_arg7) := by after_results_simp

/-! ## The first layer's aggregation writes neither row of the edge list nor a later layer's argument -/

theorem keep1_v1 : after (hostOps1 (F := F)) W (Proc.devRef .tc main_v1) = W (Proc.devRef .tc main_v1) := by after_results_simp
theorem keep1_v3 : after (hostOps1 (F := F)) W (Proc.devRef .tc main_v3) = W (Proc.devRef .tc main_v3) := by after_results_simp
theorem keep1_arg4 : after (hostOps1 (F := F)) W (Proc.devRef .tc main_arg4) = W (Proc.devRef .tc main_arg4) := by after_results_simp
theorem keep1_arg5 : after (hostOps1 (F := F)) W (Proc.devRef .tc main_arg5) = W (Proc.devRef .tc main_arg5) := by after_results_simp
theorem keep1_arg6 : after (hostOps1 (F := F)) W (Proc.devRef .tc main_arg6) = W (Proc.devRef .tc main_arg6) := by after_results_simp
theorem keep1_arg7 : after (hostOps1 (F := F)) W (Proc.devRef .tc main_arg7) = W (Proc.devRef .tc main_arg7) := by after_results_simp

/-! ## Nor does the rectifier -/

theorem keepR_v1 : after (hostOps1_1 (F := F)) W (Proc.devRef .tc main_v1) = W (Proc.devRef .tc main_v1) := by after_results_simp
theorem keepR_v3 : after (hostOps1_1 (F := F)) W (Proc.devRef .tc main_v3) = W (Proc.devRef .tc main_v3) := by after_results_simp
theorem keepR_arg4 : after (hostOps1_1 (F := F)) W (Proc.devRef .tc main_arg4) = W (Proc.devRef .tc main_arg4) := by after_results_simp
theorem keepR_arg5 : after (hostOps1_1 (F := F)) W (Proc.devRef .tc main_arg5) = W (Proc.devRef .tc main_arg5) := by after_results_simp
theorem keepR_arg6 : after (hostOps1_1 (F := F)) W (Proc.devRef .tc main_arg6) = W (Proc.devRef .tc main_arg6) := by after_results_simp
theorem keepR_arg7 : after (hostOps1_1 (F := F)) W (Proc.devRef .tc main_arg7) = W (Proc.devRef .tc main_arg7) := by after_results_simp

/-! ## The second layer's aggregation leaves the rectified first layer, the edge rows and the third layer's arguments -/

theorem keep2_v48 : after (hostOps2 (F := F)) W (Proc.devRef .tc main_v48) = W (Proc.devRef .tc main_v48) := by after_results_simp
theorem keep2_v1 : after (hostOps2 (F := F)) W (Proc.devRef .tc main_v1) = W (Proc.devRef .tc main_v1) := by after_results_simp
theorem keep2_v3 : after (hostOps2 (F := F)) W (Proc.devRef .tc main_v3) = W (Proc.devRef .tc main_v3) := by after_results_simp
theorem keep2_arg6 : after (hostOps2 (F := F)) W (Proc.devRef .tc main_arg6) = W (Proc.devRef .tc main_arg6) := by after_results_simp
theorem keep2_arg7 : after (hostOps2 (F := F)) W (Proc.devRef .tc main_arg7) = W (Proc.devRef .tc main_arg7) := by after_results_simp

/-! ## The third layer's aggregation leaves the first result -/

theorem keep3_v92 : after (hostOps3 (F := F)) W (Proc.devRef .tc main_v92) = W (Proc.devRef .tc main_v92) := by after_results_simp

end Cert.KernelIdeal.Stretch

end
-- ==== Proof.Product.lean ====
/-
  The matrix product of two arrays of extended reals, entry by entry: entry (r, c) of `x · w` is the sum over the
  contracted coordinate `k` of `x (r, k) · w (k, c)`. Both programs' dense layers are stated against this one
  function: a row-tiled product computes it block of rows by block of rows, the host's `dot_general` all at once.
-/
import Idealize.ShloMosaic.PureOps.Ideal
import Idealize.ShloMosaic.PureOps.Ideal.Laws
import Idealize.ShloMosaic.Lib.ValueIdx

noncomputable section

namespace Cert.Gcn

open Idealize.ShloMosaic

/-- `x · w` for `x` of extents `M × K` and `w` of extents `K × N`: at (r, c) the sum over `k` of `x (r, k) · w (k, c)`. -/
def prod (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ValueIdx.ix2 (⟨(i 0).val, (i 0).isLt⟩ : Fin M) k) * w (ValueIdx.ix2 k (⟨(i 1).val, (i 1).isLt⟩ : Fin N))

theorem prod_apply (M K N : Nat) (x : (⟨2, ![M, K]⟩ : Shape).Idx → EReal) (w : (⟨2, ![K, N]⟩ : Shape).Idx → EReal)
    (r : Fin M) (q : Fin N) :
    prod M K N x w (ValueIdx.ix2 r q) = ∑ k : Fin K, x (ValueIdx.ix2 r k) * w (ValueIdx.ix2 k q) := rfl

end Cert.Gcn

end
-- ==== Proof.RefDense.lean ====
/-
  The reference's three dense layers as matrix products. At the ideal values the host's `dot_general` with one
  contracted axis is, entry by entry, the sum over the contracted coordinate `k` of the left operand at (row, k)
  times the right operand at (k, column) — the generated reading of each stage at an index — and that sum is the
  specification's product `Cert.Gcn.prod` once the two operand indices are written with explicit coordinates.
-/
import proofs.«134702_j15539191677587_1_alg».proof.Proof.Gen.ReferenceIdeal.Read
import proofs.«134702_j15539191677587_1_alg».proof.Proof.Product

noncomputable section

namespace Cert.ReferenceIdeal.Dense

open Idealize.ShloMosaic Idealize.ShloMosaic.TcCoe Idealize.SL.Sem
open Cert.ReferenceIdeal Cert.ReferenceIdeal.Read

/-- The first layer's product: `x · W₁`, [100000, 128] by [128, 64]. -/
theorem first (x0 : (⟨S100000x128, .f32⟩ : BufTy).Contents (Elt Ideal)) (x2 : (⟨S128x64, .f32⟩ : BufTy).Contents (Elt Ideal)) :
    val_main_v4 (F := Ideal) x0 x2 = Cert.Gcn.prod 100000 128 64 x0 x2 := by
  funext i
  refine (val_main_v4_apply x0 x2 i).trans ?_
  show _ = ∑ k : Fin 128, x0 (ValueIdx.ix2 (⟨(i 0).val, (i 0).isLt⟩ : Fin 100000) k) * x2 (ValueIdx.ix2 k (⟨(i 1).val, (i 1).isLt⟩ : Fin 64))
  refine Finset.sum_congr rfl fun k _ => ?_
  have el : lidx_main_v4 i k = ValueIdx.ix2 (⟨(i 0).val, (i 0).isLt⟩ : Fin 100000) k :=
    funext fun a => by match a with | ⟨0, _⟩ => rfl | ⟨1, _⟩ => rfl
  have er : ridx_main_v4 i k = ValueIdx.ix2 k (⟨(i 1).val, (i 1).isLt⟩ : Fin 64) :=
    funext fun a => by match a with | ⟨0, _⟩ => rfl | ⟨1, _⟩ => rfl
  rw [el, er]

/-- The second layer's product: the rectified first layer times `W_mu`, [100000, 64] by [64, 32]. -/
theorem second (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) :
    val_main_v49 (F := Ideal) x0 x1 x2 x3 x4 = Cert.Gcn.prod 100000 64 32 (val_main_v48 (F := Ideal) x0 x1 x2 x3) x4 := by
  funext i
  refine (val_main_v49_apply x0 x1 x2 x3 x4 i).trans ?_
  generalize val_main_v48 (F := Ideal) x0 x1 x2 x3 = y
  show _ = ∑ k : Fin 64, y (ValueIdx.ix2 (⟨(i 0).val, (i 0).isLt⟩ : Fin 100000) k) * x4 (ValueIdx.ix2 k (⟨(i 1).val, (i 1).isLt⟩ : Fin 32))
  refine Finset.sum_congr rfl fun k _ => ?_
  have el : lidx_main_v49 i k = ValueIdx.ix2 (⟨(i 0).val, (i 0).isLt⟩ : Fin 100000) k :=
    funext fun a => by match a with | ⟨0, _⟩ => rfl | ⟨1, _⟩ => rfl
  have er : ridx_main_v49 i k = ValueIdx.ix2 k (⟨(i 1).val, (i 1).isLt⟩ : Fin 32) :=
    funext fun a => by match a with | ⟨0, _⟩ => rfl | ⟨1, _⟩ => rfl
  rw [el, er]

/-- The third layer's product: the rectified first layer times `W_logstd`, [100000, 64] by [64, 32]. -/
theorem third (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x6 : (⟨S64x32, .f32⟩ : BufTy).Contents (Elt Ideal)) :
    val_main_v93 (F := Ideal) x0 x1 x2 x3 x6 = Cert.Gcn.prod 100000 64 32 (val_main_v48 (F := Ideal) x0 x1 x2 x3) x6 := by
  funext i
  refine (val_main_v93_apply x0 x1 x2 x3 x6 i).trans ?_
  generalize val_main_v48 (F := Ideal) x0 x1 x2 x3 = y
  show _ = ∑ k : Fin 64, y (ValueIdx.ix2 (⟨(i 0).val, (i 0).isLt⟩ : Fin 100000) k) * x6 (ValueIdx.ix2 k (⟨(i 1).val, (i 1).isLt⟩ : Fin 32))
  refine Finset.sum_congr rfl fun k _ => ?_
  have el : lidx_main_v93 i k = ValueIdx.ix2 (⟨(i 0).val, (i 0).isLt⟩ : Fin 100000) k :=
    funext fun a => by match a with | ⟨0, _⟩ => rfl | ⟨1, _⟩ => rfl
  have er : ridx_main_v93 i k = ValueIdx.ix2 k (⟨(i 1).val, (i 1).isLt⟩ : Fin 32) :=
    funext fun a => by match a with | ⟨0, _⟩ => rfl | ⟨1, _⟩ => rfl
  rw [el, er]

end Cert.ReferenceIdeal.Dense

end
-- ==== Proof.RowBlocks0.lean ====
/-
  Region 0 of the encoder, a dense layer computed block of rows by block of rows: the grid has ten points, point
  `t` reads rows [10000 t, 10000 t + 10000) of the left operand and the whole right operand, and writes the same
  rows of the result. Entry (p, q) of what a point computes is the sum over the contracted coordinate `k` of
  (left block)(p, k) · (right operand)(k, q): narrowing an operand to a shorter format changes no extended real, and
  the accumulator is the zero array. Block by block that is the matrix product of the two whole arrays, and the ten
  blocks of rows cover the result, so the result array ends at the product.
-/
import proofs.«134702_j15539191677587_1_alg».proof.Proof.Gen.KernelIdeal.Frame
import proofs.«134702_j15539191677587_1_alg».proof.Proof.Product
import Idealize.ShloMosaic.Lib.Pipeline.Value
import Idealize.ShloMosaic.Lib.ValueIdx
import Idealize.ShloMosaic.PureOps.Ideal.Laws

noncomputable section

namespace Cert.KernelIdeal.RowBlocks0

open Idealize.ShloMosaic Idealize.ShloMosaic.TcCoe Idealize.SL.Sem Cert.KernelIdeal Cert.KernelIdeal.Gen
open Idealize.ShloMosaic.Pipeline (Dat)
open Idealize.ShloMosaic.ValueIdx (ix2)

/-! ## One block: the body's product at an entry -/

/-- The left operand's index at output entry `i` and contraction index `κ`: its row is the entry's row … -/
theorem lhs_row (i : S10000x64.Idx) (κ : dot_S10000x128_S128x64_S10000x64_1_0_0_1_n_n.contr.Idx) :
    (dot_S10000x128_S128x64_S10000x64_1_0_0_1_n_n.lhsIdx i κ 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and its column the contracted coordinate. -/
theorem lhs_col (i : S10000x64.Idx) (κ : dot_S10000x128_S128x64_S10000x64_1_0_0_1_n_n.contr.Idx) :
    (dot_S10000x128_S128x64_S10000x64_1_0_0_1_n_n.lhsIdx i κ 1).val = (κ ⟨0, by decide⟩).val :=
  dot_S10000x128_S128x64_S10000x64_1_0_0_1_n_n.lhsIdx_val_of_single rfl i κ
/-- The right operand's index there: its row is the contracted coordinate … -/
theorem rhs_row (i : S10000x64.Idx) (κ : dot_S10000x128_S128x64_S10000x64_1_0_0_1_n_n.contr.Idx) :
    (dot_S10000x128_S128x64_S10000x64_1_0_0_1_n_n.rhsIdx i κ 0).val = (κ ⟨0, by decide⟩).val :=
  dot_S10000x128_S128x64_S10000x64_1_0_0_1_n_n.rhsIdx_val_of_single rfl i κ
/-- … and its column the entry's column. -/
theorem rhs_col (i : S10000x64.Idx) (κ : dot_S10000x128_S128x64_S10000x64_1_0_0_1_n_n.contr.Idx) :
    (dot_S10000x128_S128x64_S10000x64_1_0_0_1_n_n.rhsIdx i κ 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of the body's result on blocks `x0`, `x1`: the sum over `k` of `x0 (p, k) · x1 (k, q)`. The two
    narrowings are the identity on extended reals, and the product accumulates into the zero array. -/
theorem body_entry (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, el, er]

/-- So when row `p` of the left block is row `r` of an array `X` and column `q` of the right block is column `q` of
    `W`, entry (p, q) of the body's result is entry (r, q) of the product `X · W`. -/
theorem body_entry_of_rows (X : S100000x128.Idx → EReal) (W : S128x64.Idx → EReal)
    (x0 : Vec Ideal S10000x128 .f32) (x1 : Vec Ideal S128x64 .f32) (p : Fin 10000) (q : Fin 64) (r : Fin 100000)
    (h0 : ∀ k : Fin 128, x0 (ix2 p k) = X (ix2 r k)) (h1 : ∀ k : Fin 128, x1 (ix2 k q) = W (ix2 k q)) :
    k0_pay1 x0 x1 (ix2 p q) = Cert.Gcn.prod 100000 128 64 X W (ix2 r q) := by
  rw [body_entry, Cert.Gcn.prod_apply]
  exact Finset.sum_congr rfl fun k _ => by rw [h0 k, h1 k]

/-! ## The blocks the points read and write -/

theorem hz : (![0, 0] : Fin 2 → Nat) = fun _ => 0 := funext fun a => by fin_cases a <;> rfl

/-- The index maps over the grid: at point `t` the left operand's block and the result's block are block `t` along
    the rows, and the right operand's block is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows [10000 t, 10000 t + 10000) of the array. -/
theorem left_block (V : (c : Dev nD) → (b : Ref sig .tc) → Buf (Elt Ideal) ((c : Thread nD τ).loc b)) (c : Dev nD)
    (t : Fin cfg0.N) (p : Fin 10000) (k : Fin 128) (r : Fin 100000) (hr : r.val = t.val * 10000 + p.val) :
    (iblk0 V c 0 t : Vec Ideal S10000x128 .f32) (ix2 p k) = (V c (Pipeline.arrRef spec0 0) : S100000x128.Idx → EReal) (ix2 r k) := by
  obtain ⟨e0, e1, -, -, -, -⟩ := idx_facts t
  unfold iblk0
  rw [View.read_apply]
  show (V c (Pipeline.arrRef spec0 0) : S100000x128.Idx → EReal) (((cfg0.win 0).blk t).view.emb (ix2 p k)) = _
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The right operand's block at every point is the whole array. -/
theorem right_block (V : (c : Dev nD) → (b : Ref sig .tc) → Buf (Elt Ideal) ((c : Thread nD τ).loc b)) (c : Dev nD)
    (t : Fin cfg0.N) (k : Fin 128) (q : Fin 64) :
    (iblk0 V c 1 t : Vec Ideal S128x64 .f32) (ix2 k q) = (V c (Pipeline.arrRef spec0 1) : S128x64.Idx → EReal) (ix2 k q) := by
  obtain ⟨-, -, e2, e3, -, -⟩ := idx_facts t
  unfold iblk0
  rw [View.read_apply]
  show (V c (Pipeline.arrRef spec0 1) : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- What point `t` writes back is block `t` of the product of the two arrays as the region finds them. -/
theorem flushed_eq (V : (c : Dev nD) → (b : Ref sig .tc) → Buf (Elt Ideal) ((c : Thread nD τ).loc b)) (c : Dev nD)
    (t : Fin cfg0.N) :
    (dat0 (F := Ideal) V c).flushed 2 t = ((cfg0.win 2).blk t).view.read (Elt Ideal)
      (Cert.Gcn.prod 100000 128 64 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  have hN : cfg0.N = 10 := N_0
  have ht : t.val < 10 := hN ▸ t.isLt
  obtain ⟨-, -, -, -, e4, e5⟩ := idx_facts t
  funext y
  obtain ⟨p, q, rfl⟩ : ∃ (p : Fin 10000) (q : Fin 64), y = ix2 p q :=
    ⟨⟨(y 0).val, (y 0).isLt⟩, ⟨(y 1).val, (y 1).isLt⟩, funext fun a => by
      match a with
      | ⟨0, _⟩ => rfl
      | ⟨1, _⟩ => rfl⟩
  show k0_pay1 (iblk0 V c 0 t) (iblk0 V c 1 t) (ix2 p q)
    = Cert.Gcn.prod 100000 128 64 (V c (Pipeline.arrRef spec0 0)) (V c (Pipeline.arrRef spec0 1)) (((cfg0.win 2).blk t).view.emb (ix2 p q))
  have hp : p.val < 10000 := p.isLt
  have hemb : ((cfg0.win 2).blk t).view.emb (ix2 p q) = (ix2 (⟨t.val * 10000 + p.val, by omega⟩ : Fin 100000) q : S100000x64.Idx) :=
    funext fun a => Fin.ext (by
      match a with
      | ⟨0, _⟩ => show win0_2.index t (0 : Fin 2) * 10000 + 1 * p.val = t.val * 10000 + p.val; omega
      | ⟨1, _⟩ => show win0_2.index t (1 : Fin 2) * 64 + 1 * q.val = q.val; omega)
  rw [hemb]
  exact body_entry_of_rows (V c (Pipeline.arrRef spec0 0)) (V c (Pipeline.arrRef spec0 1)) (iblk0 V c 0 t) (iblk0 V c 1 t) p q
    ⟨t.val * 10000 + p.val, by omega⟩ (fun k => left_block V c t p k _ rfl) (fun k => right_block V c t k q)

/-! ## The ten blocks of rows cover the result -/

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Row `r` of the result is in the block of point `r / 10000`, and every point writes its block back. -/
theorem covered (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]; omega

/-! ## The result array -/

/-- After the region the result array is the matrix product of the two input arrays as the region found them. -/
theorem product (V : (c : Dev nD) → (b : Ref sig .tc) → Buf (Elt Ideal) ((c : Thread nD τ).loc b)) (c : Dev nD) :
    (dat0 (F := Ideal) V c).arrAt 2 cfg0.N
      = Cert.Gcn.prod 100000 128 64 (V c (Pipeline.arrRef spec0 0)) (V c (Pipeline.arrRef spec0 1)) :=
  (dat0 (F := Ideal) V c).arrAt_eq_of_cover 2
    (Cert.Gcn.prod 100000 128 64 (V c (Pipeline.arrRef spec0 0)) (V c (Pipeline.arrRef spec0 1)))
    (fun t _ => flushed_eq V c t) covered

end Cert.KernelIdeal.RowBlocks0

end
-- ==== Proof.RowBlocks1.lean ====
/-
  Region 1 of the encoder, a dense layer computed block of rows by block of rows: the grid has ten points, point
  `t` reads rows [10000 t, 10000 t + 10000) of the left operand and the whole right operand, and writes the same
  rows of the result. Entry (p, q) of what a point computes is the sum over the contracted coordinate `k` of
  (left block)(p, k) · (right operand)(k, q): recasting a block to its own shape and narrowing an operand to a shorter
  format change no extended real, and the accumulator is the zero array. Block by block that is the matrix product of
  the two whole arrays, and the ten blocks of rows cover the result, so the result array ends at the product.
-/
import proofs.«134702_j15539191677587_1_alg».proof.Proof.Gen.KernelIdeal.Frame
import proofs.«134702_j15539191677587_1_alg».proof.Proof.Product
import Idealize.ShloMosaic.Lib.Pipeline.Value
import Idealize.ShloMosaic.Lib.ValueIdx
import Idealize.ShloMosaic.PureOps.Ideal.Laws

noncomputable section

namespace Cert.KernelIdeal.RowBlocks1

open Idealize.ShloMosaic Idealize.ShloMosaic.TcCoe Idealize.SL.Sem Cert.KernelIdeal Cert.KernelIdeal.Gen
open Idealize.ShloMosaic.Pipeline (Dat)
open Idealize.ShloMosaic.ValueIdx (ix2)

/-! ## One block: the body's product at an entry -/

/-- The left operand's index at output entry `i` and contraction index `κ`: its row is the entry's row … -/
theorem lhs_row (i : S10000x32.Idx) (κ : dot_S10000x64_S64x32_S10000x32_1_0_0_1_n_n.contr.Idx) :
    (dot_S10000x64_S64x32_S10000x32_1_0_0_1_n_n.lhsIdx i κ 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- … and its column the contracted coordinate. -/
theorem lhs_col (i : S10000x32.Idx) (κ : dot_S10000x64_S64x32_S10000x32_1_0_0_1_n_n.contr.Idx) :
    (dot_S10000x64_S64x32_S10000x32_1_0_0_1_n_n.lhsIdx i κ 1).val = (κ ⟨0, by decide⟩).val :=
  dot_S10000x64_S64x32_S10000x32_1_0_0_1_n_n.lhsIdx_val_of_single rfl i κ
/-- The right operand's index there: its row is the contracted coordinate … -/
theorem rhs_row (i : S10000x32.Idx) (κ : dot_S10000x64_S64x32_S10000x32_1_0_0_1_n_n.contr.Idx) :
    (dot_S10000x64_S64x32_S10000x32_1_0_0_1_n_n.rhsIdx i κ 0).val = (κ ⟨0, by decide⟩).val :=
  dot_S10000x64_S64x32_S10000x32_1_0_0_1_n_n.rhsIdx_val_of_single rfl i κ
/-- … and its column the entry's column. -/
theorem rhs_col (i : S10000x32.Idx) (κ : dot_S10000x64_S64x32_S10000x32_1_0_0_1_n_n.contr.Idx) :
    (dot_S10000x64_S64x32_S10000x32_1_0_0_1_n_n.rhsIdx i κ 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry (p, q) of the body's result on blocks `x0`, `x1`: the sum over `k` of `x0 (p, k) · x1 (k, q)`. The cast of
    the left block to its own shape and the two narrowings are the identity on extended reals, and the product
    accumulates into the zero array. -/
theorem body_entry (x0 : Vec Ideal S10000x64 .f32) (x1 : Vec Ideal S64x32 .f32) (p : Fin 10000) (q : Fin 32) :
    k1_pay1 x0 x1 (ix2 p q) = ∑ k : Fin 64, x0 (ix2 p k) * x1 (ix2 k q) := by
  unfold k1_pay1
  simp only [shapeCast_self]
  refine (Ideal.matmul_constant_zero_apply dot_S10000x64_S64x32_S10000x32_1_0_0_1_n_n none _ _ (ix2 p q)).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, el, er]

/-- So when row `p` of the left block is row `r` of an array `X` and column `q` of the right block is column `q` of
    `W`, entry (p, q) of the body's result is entry (r, q) of the product `X · W`. -/
theorem body_entry_of_rows (X : S100000x64.Idx → EReal) (W : S64x32.Idx → EReal)
    (x0 : Vec Ideal S10000x64 .f32) (x1 : Vec Ideal S64x32 .f32) (p : Fin 10000) (q : Fin 32) (r : Fin 100000)
    (h0 : ∀ k : Fin 64, x0 (ix2 p k) = X (ix2 r k)) (h1 : ∀ k : Fin 64, x1 (ix2 k q) = W (ix2 k q)) :
    k1_pay1 x0 x1 (ix2 p q) = Cert.Gcn.prod 100000 64 32 X W (ix2 r q) := by
  rw [body_entry, Cert.Gcn.prod_apply]
  exact Finset.sum_congr rfl fun k _ => by rw [h0 k, h1 k]

/-! ## The blocks the points read and write -/

theorem hz : (![0, 0] : Fin 2 → Nat) = fun _ => 0 := funext fun a => by fin_cases a <;> rfl

/-- The index maps over the grid: at point `t` the left operand's block and the result's block are block `t` along
    the rows, and the right operand's block is its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows [10000 t, 10000 t + 10000) of the array. -/
theorem left_block (V : (c : Dev nD) → (b : Ref sig .tc) → Buf (Elt Ideal) ((c : Thread nD τ).loc b)) (c : Dev nD)
    (t : Fin cfg1.N) (p : Fin 10000) (k : Fin 64) (r : Fin 100000) (hr : r.val = t.val * 10000 + p.val) :
    (iblk1 V c 0 t : Vec Ideal S10000x64 .f32) (ix2 p k) = (V c (Pipeline.arrRef spec1 0) : S100000x64.Idx → EReal) (ix2 r k) := by
  obtain ⟨e0, e1, -, -, -, -⟩ := idx_facts t
  unfold iblk1
  rw [View.read_apply]
  show (V c (Pipeline.arrRef spec1 0) : S100000x64.Idx → EReal) (((cfg1.win 0).blk t).view.emb (ix2 p k)) = _
  refine congrArg _ (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- The right operand's block at every point is the whole array. -/
theorem right_block (V : (c : Dev nD) → (b : Ref sig .tc) → Buf (Elt Ideal) ((c : Thread nD τ).loc b)) (c : Dev nD)
    (t : Fin cfg1.N) (k : Fin 64) (q : Fin 32) :
    (iblk1 V c 1 t : Vec Ideal S64x32 .f32) (ix2 k q) = (V c (Pipeline.arrRef spec1 1) : S64x32.Idx → EReal) (ix2 k q) := by
  obtain ⟨-, -, e2, e3, -, -⟩ := idx_facts t
  unfold iblk1
  rw [View.read_apply]
  show (V c (Pipeline.arrRef spec1 1) : S64x32.Idx → EReal) (((cfg1.win 1).blk t).view.emb (ix2 k q)) = _
  refine congrArg _ (funext fun a => Fin.ext ?_)
  match a with
  | ⟨0, _⟩ => show win1_1.index t (0 : Fin 2) * 64 + 1 * k.val = k.val; omega
  | ⟨1, _⟩ => show win1_1.index t (1 : Fin 2) * 32 + 1 * q.val = q.val; omega

/-- What point `t` writes back is block `t` of the product of the two arrays as the region finds them. -/
theorem flushed_eq (V : (c : Dev nD) → (b : Ref sig .tc) → Buf (Elt Ideal) ((c : Thread nD τ).loc b)) (c : Dev nD)
    (t : Fin cfg1.N) :
    (dat1 (F := Ideal) V c).flushed 2 t = ((cfg1.win 2).blk t).view.read (Elt Ideal)
      (Cert.Gcn.prod 100000 64 32 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  have hN : cfg1.N = 10 := N_1
  have ht : t.val < 10 := hN ▸ t.isLt
  obtain ⟨-, -, -, -, e4, e5⟩ := idx_facts t
  funext y
  obtain ⟨p, q, rfl⟩ : ∃ (p : Fin 10000) (q : Fin 32), y = ix2 p q :=
    ⟨⟨(y 0).val, (y 0).isLt⟩, ⟨(y 1).val, (y 1).isLt⟩, funext fun a => by
      match a with
      | ⟨0, _⟩ => rfl
      | ⟨1, _⟩ => rfl⟩
  show k1_pay1 (iblk1 V c 0 t) (iblk1 V c 1 t) (ix2 p q)
    = Cert.Gcn.prod 100000 64 32 (V c (Pipeline.arrRef spec1 0)) (V c (Pipeline.arrRef spec1 1)) (((cfg1.win 2).blk t).view.emb (ix2 p q))
  have hp : p.val < 10000 := p.isLt
  have hemb : ((cfg1.win 2).blk t).view.emb (ix2 p q) = (ix2 (⟨t.val * 10000 + p.val, by omega⟩ : Fin 100000) q : S100000x32.Idx) :=
    funext fun a => Fin.ext (by
      match a with
      | ⟨0, _⟩ => show win1_2.index t (0 : Fin 2) * 10000 + 1 * p.val = t.val * 10000 + p.val; omega
      | ⟨1, _⟩ => show win1_2.index t (1 : Fin 2) * 32 + 1 * q.val = q.val; omega)
  rw [hemb]
  exact body_entry_of_rows (V c (Pipeline.arrRef spec1 0)) (V c (Pipeline.arrRef spec1 1)) (iblk1 V c 0 t) (iblk1 V c 1 t) p q
    ⟨t.val * 10000 + p.val, by omega⟩ (fun k => left_block V c t p k _ rfl) (fun k => right_block V c t k q)

/-! ## The ten blocks of rows cover the result -/

/-- An index of the result is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v49).slice (win1_2.rect t)).set ↔ _
  rw [View.set_slice_whole, Rect.mem_set_unit]
  exact Iff.rfl

/-- Row `r` of the result is in the block of point `r / 10000`, and every point writes its block back. -/
theorem covered (i : S100000x32.Idx) :
    ∃ t : Fin cfg1.N, (cfg1.win 2).flush t = true ∧ i ∈ ((cfg1.win 2).blk t).view.set := by
  have hN : cfg1.N = 10 := N_1
  have hi0 : (i 0).val < 100000 := (i 0).isLt
  have hi1 : (i 1).val < 32 := (i 1).isLt
  have hlt : (i 0).val / 10000 < cfg1.N := by rw [hN]; omega
  obtain ⟨-, -, -, -, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 32 ≤ (i 1).val ∧ (i 1).val < win1_2.index ⟨(i 0).val / 10000, hlt⟩ (1 : Fin 2) * 32 + 32
    rw [e5]; omega

/-! ## The result array -/

/-- After the region the result array is the matrix product of the two input arrays as the region found them. -/
theorem product (V : (c : Dev nD) → (b : Ref sig .tc) → Buf (Elt Ideal) ((c : Thread nD τ).loc b)) (c : Dev nD) :
    (dat1 (F := Ideal) V c).arrAt 2 cfg1.N
      = Cert.Gcn.prod 100000 64 32 (V c (Pipeline.arrRef spec1 0)) (V c (Pipeline.arrRef spec1 1)) :=
  (dat1 (F := Ideal) V c).arrAt_eq_of_cover 2
    (Cert.Gcn.prod 100000 64 32 (V c (Pipeline.arrRef spec1 0)) (V c (Pipeline.arrRef spec1 1)))
    (fun t _ => flushed_eq V c t) covered

end Cert.KernelIdeal.RowBlocks1

end
-- ==== Proof.RowBlocks2.lean ====
/-
  Region 2 of the encoder, a dense layer computed block of rows by block of rows: the grid has ten points, point
  `t` reads rows [10000 t, 10000 t + 10000) of the left operand and the whole right operand, and writes the same
  rows of the result. Entry (p, q) of what a point computes is the sum over the contracted coordinate `k` of
  (left block)(p, k) · (right operand)(k, q): recasting a block to its own shape and narrowing an operand to a shorter
  format change no extended real, and the accumulator is the zero array. Block by block that is the matrix product of
  the two whole arrays, and the ten blocks of rows cover the result, so the result array ends at the product.
-/
import proofs.«134702_j15539191677587_1_alg».proof.Proof.Gen.KernelIdeal.Frame
import proofs.«134702_j15539191677587_1_alg».proof.Proof.Product
import Idealize.ShloMosaic.Lib.Pipeline.Value
import Idealize.ShloMosaic.Lib.ValueIdx
import Idealize.ShloMosaic.PureOps.Ideal.Laws

noncomputable section

namespace Cert.KernelIdeal.RowBlocks2

open Idealize.ShloMosaic Idealize.ShloMosaic.TcCoe Idealize.SL.Sem Cert.KernelIdeal Cert.KernelIdeal.Gen
open Idealize.ShloMosaic.Pipeline (Dat)
open Idealize.ShloMosaic.ValueIdx (ix2)

/-! ## One block: the body's product at an entry -/

/-- The left operand's index at output entry `i` and contraction index `κ`: its row is the entry's row … -/
theorem lhs_row (i : S10000x32.Idx) (κ : dot_S10000x64_S64x32_S10000x32_1_0_0_1_n_n.contr.Idx) :
    (dot_S10000x64_S64x32_S10000x32_1_0_0_1_n_n.lhsIdx i κ 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- … and its column the contracted coordinate. -/
theorem lhs_col (i : S10000x32.Idx) (κ : dot_S10000x64_S64x32_S10000x32_1_0_0_1_n_n.contr.Idx) :
    (dot_S10000x64_S64x32_S10000x32_1_0_0_1_n_n.lhsIdx i κ 1).val = (κ ⟨0, by decide⟩).val :=
  dot_S10000x64_S64x32_S10000x32_1_0_0_1_n_n.lhsIdx_val_of_single rfl i κ
/-- The right operand's index there: its row is the contracted coordinate … -/
theorem rhs_row (i : S10000x32.Idx) (κ : dot_S10000x64_S64x32_S10000x32_1_0_0_1_n_n.contr.Idx) :
    (dot_S10000x64_S64x32_S10000x32_1_0_0_1_n_n.rhsIdx i κ 0).val = (κ ⟨0, by decide⟩).val :=
  dot_S10000x64_S64x32_S10000x32_1_0_0_1_n_n.rhsIdx_val_of_single rfl i κ
/-- … and its column the entry's column. -/
theorem rhs_col (i : S10000x32.Idx) (κ : dot_S10000x64_S64x32_S10000x32_1_0_0_1_n_n.contr.Idx) :
    (dot_S10000x64_S64x32_S10000x32_1_0_0_1_n_n.rhsIdx i κ 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry (p, q) of the body's result on blocks `x0`, `x1`: the sum over `k` of `x0 (p, k) · x1 (k, q)`. The cast of
    the left block to its own shape and the two narrowings are the identity on extended reals, and the product
    accumulates into the zero array. -/
theorem body_entry (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  simp only [shapeCast_self]
  refine (Ideal.matmul_constant_zero_apply dot_S10000x64_S64x32_S10000x32_1_0_0_1_n_n none _ _ (ix2 p q)).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, el, er]

/-- So when row `p` of the left block is row `r` of an array `X` and column `q` of the right block is column `q` of
    `W`, entry (p, q) of the body's result is entry (r, q) of the product `X · W`. -/
theorem body_entry_of_rows (X : S100000x64.Idx → EReal) (W : S64x32.Idx → EReal)
    (x0 : Vec Ideal S10000x64 .f32) (x1 : Vec Ideal S64x32 .f32) (p : Fin 10000) (q : Fin 32) (r : Fin 100000)
    (h0 : ∀ k : Fin 64, x0 (ix2 p k) = X (ix2 r k)) (h1 : ∀ k : Fin 64, x1 (ix2 k q) = W (ix2 k q)) :
    k2_pay1 x0 x1 (ix2 p q) = Cert.Gcn.prod 100000 64 32 X W (ix2 r q) := by
  rw [body_entry, Cert.Gcn.prod_apply]
  exact Finset.sum_congr rfl fun k _ => by rw [h0 k, h1 k]

/-! ## The blocks the points read and write -/

theorem hz : (![0, 0] : Fin 2 → Nat) = fun _ => 0 := funext fun a => by fin_cases a <;> rfl

/-- The index maps over the grid: at point `t` the left operand's block and the result's block are block `t` along
    the rows, and the right operand's block is its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows [10000 t, 10000 t + 10000) of the array. -/
theorem left_block (V : (c : Dev nD) → (b : Ref sig .tc) → Buf (Elt Ideal) ((c : Thread nD τ).loc b)) (c : Dev nD)
    (t : Fin cfg2.N) (p : Fin 10000) (k : Fin 64) (r : Fin 100000) (hr : r.val = t.val * 10000 + p.val) :
    (iblk2 V c 0 t : Vec Ideal S10000x64 .f32) (ix2 p k) = (V c (Pipeline.arrRef spec2 0) : S100000x64.Idx → EReal) (ix2 r k) := by
  obtain ⟨e0, e1, -, -, -, -⟩ := idx_facts t
  unfold iblk2
  rw [View.read_apply]
  show (V c (Pipeline.arrRef spec2 0) : S100000x64.Idx → EReal) (((cfg2.win 0).blk t).view.emb (ix2 p k)) = _
  refine congrArg _ (funext fun a => Fin.ext ?_)
  match a with
  | ⟨0, _⟩ => show win2_0.index t (0 : Fin 2) * 10000 + 1 * p.val = r.val; omega
  | ⟨1, _⟩ => show win2_0.index t (1 : Fin 2) * 64 + 1 * k.val = k.val; omega

/-- The right operand's block at every point is the whole array. -/
theorem right_block (V : (c : Dev nD) → (b : Ref sig .tc) → Buf (Elt Ideal) ((c : Thread nD τ).loc b)) (c : Dev nD)
    (t : Fin cfg2.N) (k : Fin 64) (q : Fin 32) :
    (iblk2 V c 1 t : Vec Ideal S64x32 .f32) (ix2 k q) = (V c (Pipeline.arrRef spec2 1) : S64x32.Idx → EReal) (ix2 k q) := by
  obtain ⟨-, -, e2, e3, -, -⟩ := idx_facts t
  unfold iblk2
  rw [View.read_apply]
  show (V c (Pipeline.arrRef spec2 1) : S64x32.Idx → EReal) (((cfg2.win 1).blk t).view.emb (ix2 k q)) = _
  refine congrArg _ (funext fun a => Fin.ext ?_)
  match a with
  | ⟨0, _⟩ => show win2_1.index t (0 : Fin 2) * 64 + 1 * k.val = k.val; omega
  | ⟨1, _⟩ => show win2_1.index t (1 : Fin 2) * 32 + 1 * q.val = q.val; omega

/-- What point `t` writes back is block `t` of the product of the two arrays as the region finds them. -/
theorem flushed_eq (V : (c : Dev nD) → (b : Ref sig .tc) → Buf (Elt Ideal) ((c : Thread nD τ).loc b)) (c : Dev nD)
    (t : Fin cfg2.N) :
    (dat2 (F := Ideal) V c).flushed 2 t = ((cfg2.win 2).blk t).view.read (Elt Ideal)
      (Cert.Gcn.prod 100000 64 32 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x32) hz]
  have hN : cfg2.N = 10 := N_2
  have ht : t.val < 10 := hN ▸ t.isLt
  obtain ⟨-, -, -, -, e4, e5⟩ := idx_facts t
  funext y
  obtain ⟨p, q, rfl⟩ : ∃ (p : Fin 10000) (q : Fin 32), y = ix2 p q :=
    ⟨⟨(y 0).val, (y 0).isLt⟩, ⟨(y 1).val, (y 1).isLt⟩, funext fun a => by
      match a with
      | ⟨0, _⟩ => rfl
      | ⟨1, _⟩ => rfl⟩
  show k2_pay1 (iblk2 V c 0 t) (iblk2 V c 1 t) (ix2 p q)
    = Cert.Gcn.prod 100000 64 32 (V c (Pipeline.arrRef spec2 0)) (V c (Pipeline.arrRef spec2 1)) (((cfg2.win 2).blk t).view.emb (ix2 p q))
  have hp : p.val < 10000 := p.isLt
  have hemb : ((cfg2.win 2).blk t).view.emb (ix2 p q) = (ix2 (⟨t.val * 10000 + p.val, by omega⟩ : Fin 100000) q : S100000x32.Idx) :=
    funext fun a => Fin.ext (by
      match a with
      | ⟨0, _⟩ => show win2_2.index t (0 : Fin 2) * 10000 + 1 * p.val = t.val * 10000 + p.val; omega
      | ⟨1, _⟩ => show win2_2.index t (1 : Fin 2) * 32 + 1 * q.val = q.val; omega)
  rw [hemb]
  exact body_entry_of_rows (V c (Pipeline.arrRef spec2 0)) (V c (Pipeline.arrRef spec2 1)) (iblk2 V c 0 t) (iblk2 V c 1 t) p q
    ⟨t.val * 10000 + p.val, by omega⟩ (fun k => left_block V c t p k _ rfl) (fun k => right_block V c t k q)

/-! ## The ten blocks of rows cover the result -/

/-- An index of the result is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v93).slice (win2_2.rect t)).set ↔ _
  rw [View.set_slice_whole, Rect.mem_set_unit]
  exact Iff.rfl

/-- Row `r` of the result is in the block of point `r / 10000`, and every point writes its block back. -/
theorem covered (i : S100000x32.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 32 := (i 1).isLt
  have hlt : (i 0).val / 10000 < cfg2.N := by rw [hN]; omega
  obtain ⟨-, -, -, -, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 32 ≤ (i 1).val ∧ (i 1).val < win2_2.index ⟨(i 0).val / 10000, hlt⟩ (1 : Fin 2) * 32 + 32
    rw [e5]; omega

/-! ## The result array -/

/-- After the region the result array is the matrix product of the two input arrays as the region found them. -/
theorem product (V : (c : Dev nD) → (b : Ref sig .tc) → Buf (Elt Ideal) ((c : Thread nD τ).loc b)) (c : Dev nD) :
    (dat2 (F := Ideal) V c).arrAt 2 cfg2.N
      = Cert.Gcn.prod 100000 64 32 (V c (Pipeline.arrRef spec2 0)) (V c (Pipeline.arrRef spec2 1)) :=
  (dat2 (F := Ideal) V c).arrAt_eq_of_cover 2
    (Cert.Gcn.prod 100000 64 32 (V c (Pipeline.arrRef spec2 0)) (V c (Pipeline.arrRef spec2 1)))
    (fun t _ => flushed_eq V c t) covered

end Cert.KernelIdeal.RowBlocks2

end
-- ==== Proof.KernelWalk.lean ====
/-
  The idealized kernel program's two result arrays as functions of its arguments. The program's buffer contents
  are followed from the launch memory through its eight segments. A stretch of host operations computes the
  reference's own stages from the buffers it reads and leaves every other buffer alone; a region (a matrix product
  tiled over blocks of 10000 rows) replaces its output array by the product of its two input arrays as it found
  them — which at the ideal values is the host's `dot_general` of the same arrays — and keeps every other buffer.
  At each boundary the buffers still to be read hold: the arguments, as launched; the edge list's source and target
  rows; and the reference's stage for each layer computed so far. At the last boundary the two results are the
  reference's two result stages of the launch arguments.
-/
import proofs.«134702_j15539191677587_1_alg».proof.Proof.Gen.KernelIdeal.Frame
import proofs.«134702_j15539191677587_1_alg».proof.Proof.StretchValues
import proofs.«134702_j15539191677587_1_alg».proof.Proof.StretchKeeps
import proofs.«134702_j15539191677587_1_alg».proof.Proof.RefDense
import proofs.«134702_j15539191677587_1_alg».proof.Proof.RowBlocks0
import proofs.«134702_j15539191677587_1_alg».proof.Proof.RowBlocks1
import proofs.«134702_j15539191677587_1_alg».proof.Proof.RowBlocks2

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.Stretch
open Cert.ReferenceIdeal.Read

variable (m : (ℓ : Loc nD τ sig) → Buf (Elt Ideal) ℓ) (ρ : Dev nD → PrngReg) (c : Dev nD)

/-! ## Boundary 1: the edge list sliced -/

theorem b1_arg0 : W1 m ρ c (Proc.devRef .tc main_arg0) = (m ((c : Thread nD τ).loc main_arg0)) := keep0_arg0 (W0 m ρ c)
theorem b1_arg2 : W1 m ρ c (Proc.devRef .tc main_arg2) = (m ((c : Thread nD τ).loc main_arg2)) := keep0_arg2 (W0 m ρ c)
theorem b1_arg3 : W1 m ρ c (Proc.devRef .tc main_arg3) = (m ((c : Thread nD τ).loc main_arg3)) := keep0_arg3 (W0 m ρ c)
theorem b1_arg4 : W1 m ρ c (Proc.devRef .tc main_arg4) = (m ((c : Thread nD τ).loc main_arg4)) := keep0_arg4 (W0 m ρ c)
theorem b1_arg5 : W1 m ρ c (Proc.devRef .tc main_arg5) = (m ((c : Thread nD τ).loc main_arg5)) := keep0_arg5 (W0 m ρ c)
theorem b1_arg6 : W1 m ρ c (Proc.devRef .tc main_arg6) = (m ((c : Thread nD τ).loc main_arg6)) := keep0_arg6 (W0 m ρ c)
theorem b1_arg7 : W1 m ρ c (Proc.devRef .tc main_arg7) = (m ((c : Thread nD τ).loc main_arg7)) := keep0_arg7 (W0 m ρ c)
theorem b1_src : W1 m ρ c (Proc.devRef .tc main_v1) = val_main_v1 (F := Ideal) (m ((c : Thread nD τ).loc main_arg1)) := src_rows (W0 m ρ c) (m ((c : Thread nD τ).loc main_arg1)) rfl
theorem b1_dst : W1 m ρ c (Proc.devRef .tc main_v3) = val_main_v3 (F := Ideal) (m ((c : Thread nD τ).loc main_arg1)) := dst_rows (W0 m ρ c) (m ((c : Thread nD τ).loc main_arg1)) rfl

/-! ## Boundary 2: the first product `x · W₁` written, block of rows by block of rows -/

theorem b2_h : W2 m ρ c (Proc.devRef .tc main_v4) = val_main_v4 (F := Ideal) (m ((c : Thread nD τ).loc main_arg0)) (m ((c : Thread nD τ).loc main_arg2)) := by
  have e0 : V1 m ρ c (Pipeline.arrRef spec0 0) = (m ((c : Thread nD τ).loc main_arg0)) := b1_arg0 m ρ c
  have e1 : V1 m ρ c (Pipeline.arrRef spec0 1) = (m ((c : Thread nD τ).loc main_arg2)) := b1_arg2 m ρ c
  refine (W2_arr m ρ c 2).trans ((Cert.KernelIdeal.RowBlocks0.product (V1 m ρ) c).trans ?_)
  rw [e0, e1]
  exact (Cert.ReferenceIdeal.Dense.first _ _).symm
theorem b2_src : W2 m ρ c (Proc.devRef .tc main_v1) = val_main_v1 (F := Ideal) (m ((c : Thread nD τ).loc main_arg1)) := (W2_of_ne m ρ c main_v1 (by decide)).trans (b1_src m ρ c)
theorem b2_dst : W2 m ρ c (Proc.devRef .tc main_v3) = val_main_v3 (F := Ideal) (m ((c : Thread nD τ).loc main_arg1)) := (W2_of_ne m ρ c main_v3 (by decide)).trans (b1_dst m ρ c)
theorem b2_arg3 : W2 m ρ c (Proc.devRef .tc main_arg3) = (m ((c : Thread nD τ).loc main_arg3)) := (W2_of_ne m ρ c main_arg3 (by decide)).trans (b1_arg3 m ρ c)
theorem b2_arg4 : W2 m ρ c (Proc.devRef .tc main_arg4) = (m ((c : Thread nD τ).loc main_arg4)) := (W2_of_ne m ρ c main_arg4 (by decide)).trans (b1_arg4 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)
theorem b2_arg7 : W2 m ρ c (Proc.devRef .tc main_arg7) = (m ((c : Thread nD τ).loc main_arg7)) := (W2_of_ne m ρ c main_arg7 (by decide)).trans (b1_arg7 m ρ c)

/-! ## Boundary 3: the first layer aggregated over the graph, bias added -/

theorem b3_h : W3 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  layer1 (W2 m ρ c) (m ((c : Thread nD τ).loc main_arg0)) (m ((c : Thread nD τ).loc main_arg1)) (m ((c : Thread nD τ).loc main_arg2)) (m ((c : Thread nD τ).loc main_arg3)) (b2_h m ρ c) (b2_src m ρ c) (b2_dst m ρ c) (b2_arg3 m ρ c)
theorem b3_src : W3 m ρ c (Proc.devRef .tc main_v1) = val_main_v1 (F := Ideal) (m ((c : Thread nD τ).loc main_arg1)) := (keep1_v1 (W2 m ρ c)).trans (b2_src m ρ c)
theorem b3_dst : W3 m ρ c (Proc.devRef .tc main_v3) = val_main_v3 (F := Ideal) (m ((c : Thread nD τ).loc main_arg1)) := (keep1_v3 (W2 m ρ c)).trans (b2_dst m ρ c)
theorem b3_arg4 : W3 m ρ c (Proc.devRef .tc main_arg4) = (m ((c : Thread nD τ).loc main_arg4)) := (keep1_arg4 (W2 m ρ c)).trans (b2_arg4 m ρ c)
theorem b3_arg5 : W3 m ρ c (Proc.devRef .tc main_arg5) = (m ((c : Thread nD τ).loc main_arg5)) := (keep1_arg5 (W2 m ρ c)).trans (b2_arg5 m ρ c)
theorem b3_arg6 : W3 m ρ c (Proc.devRef .tc main_arg6) = (m ((c : Thread nD τ).loc main_arg6)) := (keep1_arg6 (W2 m ρ c)).trans (b2_arg6 m ρ c)
theorem b3_arg7 : W3 m ρ c (Proc.devRef .tc main_arg7) = (m ((c : Thread nD τ).loc main_arg7)) := (keep1_arg7 (W2 m ρ c)).trans (b2_arg7 m ρ c)

/-! ## Boundary 4: rectified -/

theorem b4_h : W4 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) :=
  rectified (W3 m ρ c) (m ((c : Thread nD τ).loc main_arg0)) (m ((c : Thread nD τ).loc main_arg1)) (m ((c : Thread nD τ).loc main_arg2)) (m ((c : Thread nD τ).loc main_arg3)) (b3_h m ρ c)
theorem b4_src : W4 m ρ c (Proc.devRef .tc main_v1) = val_main_v1 (F := Ideal) (m ((c : Thread nD τ).loc main_arg1)) := (keepR_v1 (W3 m ρ c)).trans (b3_src m ρ c)
theorem b4_dst : W4 m ρ c (Proc.devRef .tc main_v3) = val_main_v3 (F := Ideal) (m ((c : Thread nD τ).loc main_arg1)) := (keepR_v3 (W3 m ρ c)).trans (b3_dst m ρ c)
theorem b4_arg4 : W4 m ρ c (Proc.devRef .tc main_arg4) = (m ((c : Thread nD τ).loc main_arg4)) := (keepR_arg4 (W3 m ρ c)).trans (b3_arg4 m ρ c)
theorem b4_arg5 : W4 m ρ c (Proc.devRef .tc main_arg5) = (m ((c : Thread nD τ).loc main_arg5)) := (keepR_arg5 (W3 m ρ c)).trans (b3_arg5 m ρ c)
theorem b4_arg6 : W4 m ρ c (Proc.devRef .tc main_arg6) = (m ((c : Thread nD τ).loc main_arg6)) := (keepR_arg6 (W3 m ρ c)).trans (b3_arg6 m ρ c)
theorem b4_arg7 : W4 m ρ c (Proc.devRef .tc main_arg7) = (m ((c : Thread nD τ).loc main_arg7)) := (keepR_arg7 (W3 m ρ c)).trans (b3_arg7 m ρ c)

/-! ## Boundary 5: the second product (rectified layer times `W_mu`) written; the rectified layer, an input, kept -/

theorem b5_mu : W5 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e0 : V4 m ρ c (Pipeline.arrRef spec1 0) = val_main_v48 (F := Ideal) (m ((c : Thread nD τ).loc main_arg0)) (m ((c : Thread nD τ).loc main_arg1)) (m ((c : Thread nD τ).loc main_arg2)) (m ((c : Thread nD τ).loc main_arg3)) := b4_h m ρ c
  have e1 : V4 m ρ c (Pipeline.arrRef spec1 1) = (m ((c : Thread nD τ).loc main_arg4)) := b4_arg4 m ρ c
  refine (W5_arr m ρ c 2).trans ((Cert.KernelIdeal.RowBlocks1.product (V4 m ρ) c).trans ?_)
  rw [e0, e1]
  exact (Cert.ReferenceIdeal.Dense.second _ _ _ _ _).symm
theorem b5_h : W5 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) :=
  ((W5_arr m ρ c 0).trans (((dat1 (V4 m ρ) c).arrAt_in 0 rfl _).trans (A_eq1 (V4 m ρ) c 0))).trans (b4_h m ρ c)
theorem b5_src : W5 m ρ c (Proc.devRef .tc main_v1) = val_main_v1 (F := Ideal) (m ((c : Thread nD τ).loc main_arg1)) := (W5_of_ne m ρ c main_v1 (by decide)).trans (b4_src m ρ c)
theorem b5_dst : W5 m ρ c (Proc.devRef .tc main_v3) = val_main_v3 (F := Ideal) (m ((c : Thread nD τ).loc main_arg1)) := (W5_of_ne m ρ c main_v3 (by decide)).trans (b4_dst m ρ c)
theorem b5_arg5 : W5 m ρ c (Proc.devRef .tc main_arg5) = (m ((c : Thread nD τ).loc main_arg5)) := (W5_of_ne m ρ c main_arg5 (by decide)).trans (b4_arg5 m ρ c)
theorem b5_arg6 : W5 m ρ c (Proc.devRef .tc main_arg6) = (m ((c : Thread nD τ).loc main_arg6)) := (W5_of_ne m ρ c main_arg6 (by decide)).trans (b4_arg6 m ρ c)
theorem b5_arg7 : W5 m ρ c (Proc.devRef .tc main_arg7) = (m ((c : Thread nD τ).loc main_arg7)) := (W5_of_ne m ρ c main_arg7 (by decide)).trans (b4_arg7 m ρ c)

/-! ## Boundary 6: the first result -/

theorem b6_out0 : W6 m ρ c (Proc.devRef .tc main_v92) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layer_mu (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (b5_mu m ρ c) (b5_src m ρ c) (b5_dst m ρ c) (b5_arg5 m ρ c)
theorem b6_h : W6 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) := (keep2_v48 (W5 m ρ c)).trans (b5_h m ρ c)
theorem b6_src : W6 m ρ c (Proc.devRef .tc main_v1) = val_main_v1 (F := Ideal) (m ((c : Thread nD τ).loc main_arg1)) := (keep2_v1 (W5 m ρ c)).trans (b5_src m ρ c)
theorem b6_dst : W6 m ρ c (Proc.devRef .tc main_v3) = val_main_v3 (F := Ideal) (m ((c : Thread nD τ).loc main_arg1)) := (keep2_v3 (W5 m ρ c)).trans (b5_dst m ρ c)
theorem b6_arg6 : W6 m ρ c (Proc.devRef .tc main_arg6) = (m ((c : Thread nD τ).loc main_arg6)) := (keep2_arg6 (W5 m ρ c)).trans (b5_arg6 m ρ c)
theorem b6_arg7 : W6 m ρ c (Proc.devRef .tc main_arg7) = (m ((c : Thread nD τ).loc main_arg7)) := (keep2_arg7 (W5 m ρ c)).trans (b5_arg7 m ρ c)

/-! ## Boundary 7: the third product (rectified layer times `W_logstd`) written -/

theorem b7_logstd : W7 m ρ c (Proc.devRef .tc main_v93) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  have e0 : V6 m ρ c (Pipeline.arrRef spec2 0) = val_main_v48 (F := Ideal) (m ((c : Thread nD τ).loc main_arg0)) (m ((c : Thread nD τ).loc main_arg1)) (m ((c : Thread nD τ).loc main_arg2)) (m ((c : Thread nD τ).loc main_arg3)) := b6_h m ρ c
  have e1 : V6 m ρ c (Pipeline.arrRef spec2 1) = (m ((c : Thread nD τ).loc main_arg6)) := b6_arg6 m ρ c
  refine (W7_arr m ρ c 2).trans ((Cert.KernelIdeal.RowBlocks2.product (V6 m ρ) c).trans ?_)
  rw [e0, e1]
  exact (Cert.ReferenceIdeal.Dense.third _ _ _ _ _).symm
theorem b7_out0 : W7 m ρ c (Proc.devRef .tc main_v92) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W7_of_ne m ρ c main_v92 (by decide)).trans (b6_out0 m ρ c)
theorem b7_src : W7 m ρ c (Proc.devRef .tc main_v1) = val_main_v1 (F := Ideal) (m ((c : Thread nD τ).loc main_arg1)) := (W7_of_ne m ρ c main_v1 (by decide)).trans (b6_src m ρ c)
theorem b7_dst : W7 m ρ c (Proc.devRef .tc main_v3) = val_main_v3 (F := Ideal) (m ((c : Thread nD τ).loc main_arg1)) := (W7_of_ne m ρ c main_v3 (by decide)).trans (b6_dst m ρ c)
theorem b7_arg7 : W7 m ρ c (Proc.devRef .tc main_arg7) = (m ((c : Thread nD τ).loc main_arg7)) := (W7_of_ne m ρ c main_arg7 (by decide)).trans (b6_arg7 m ρ c)

/-! ## The last boundary: both results -/

/-- The first result array ends at the reference's first result stage of the launch arguments. -/
theorem out0 : W8 m ρ c (Proc.devRef .tc main_v92) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (keep3_v92 (W7 m ρ c)).trans (b7_out0 m ρ c)

/-- The second result array ends at the reference's second result stage of the launch arguments. -/
theorem out1 : W8 m ρ c (Proc.devRef .tc main_v136) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  layer_logstd (W7 m ρ c) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (b7_logstd m ρ c) (b7_src m ρ c) (b7_dst m ρ c) (b7_arg7 m ρ c)

end Cert.KernelIdeal.Walk

end
-- ==== Proof.lean ====
/-
  The certificate of a three-layer graph-convolution encoder: the kernel program computes each dense layer `x · W`
  as a matrix product tiled over ten blocks of 10000 rows (its operands rounded to bf16 on the way in, which at the
  ideal values is the identity) and everything else — the symmetric-normalized aggregation over the edge list, the
  bias, the rectifier — by the same host operations as the reference, which computes each dense layer by one
  `dot_general`. At the ideal values a block of rows of a product is the product of that block of rows, and a
  product accumulated from zero is the plain sum `∑ₖ x (r, k) · W (k, c)`, which is what `dot_general` is; no law
  beyond that is used, so the precondition on the inputs is never opened.

  The three frames: the two kernel programs' are their generated frame certificates (three regions among stretches of
  host operations); the reference's is its generated run with the results dropped. The idealization rewrote no
  operation, so `preserves` has nothing to state. For `algebraic` both runs are stated with the same two witnesses:
  the reference's own result stages, as functions of the argument arrays, applied to the kernel's launch arguments.
-/
import proofs.«134702_j15539191677587_1_alg».proof.Defs
import proofs.«134702_j15539191677587_1_alg».proof.Proof.Gen.Kernel
import proofs.«134702_j15539191677587_1_alg».proof.Proof.Gen.Kernel.Skeleton
import proofs.«134702_j15539191677587_1_alg».proof.Proof.Gen.Kernel.Launch
import proofs.«134702_j15539191677587_1_alg».proof.Proof.Gen.Kernel.Points
import proofs.«134702_j15539191677587_1_alg».proof.Proof.Gen.Kernel.Frame
import proofs.«134702_j15539191677587_1_alg».proof.Proof.Gen.KernelIdeal
import proofs.«134702_j15539191677587_1_alg».proof.Proof.Gen.KernelIdeal.Skeleton
import proofs.«134702_j15539191677587_1_alg».proof.Proof.Gen.KernelIdeal.Launch
import proofs.«134702_j15539191677587_1_alg».proof.Proof.Gen.KernelIdeal.Points
import proofs.«134702_j15539191677587_1_alg».proof.Proof.Gen.KernelIdeal.Frame
import proofs.«134702_j15539191677587_1_alg».proof.Proof.Gen.ReferenceIdeal
import proofs.«134702_j15539191677587_1_alg».proof.Proof.Gen.ReferenceIdeal.Run
import proofs.«134702_j15539191677587_1_alg».proof.Proof.Gen.ReferenceIdeal.Read
import proofs.«134702_j15539191677587_1_alg».proof.Proof.Gen.Pre_finite_inputs
import proofs.«134702_j15539191677587_1_alg».proof.Proof.KernelNamed
import proofs.«134702_j15539191677587_1_alg».proof.Proof.KernelWalk
import Idealize.ShloMosaic.Adequacy
import Idealize.ShloMosaic.Init

noncomputable section

namespace Cert.Proof

open Idealize.ShloMosaic Idealize.ShloMosaic.TcCoe Idealize.SL.Sem

/-- The kernel program as printed: its generated frame certificate. -/
theorem frame_kernel : Cert.frame_Kernel := fun m ρ _ => Cert.Kernel.Gen.frame m ρ

/-- The idealized kernel program: its generated frame certificate. -/
theorem frame_kernelIdeal : Cert.frame_KernelIdeal := fun m ρ _ => Cert.KernelIdeal.Gen.frame m ρ

/-- The reference is host operations only: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs, from memories agreeing on the arguments, end with the reference's two result stages of those
    arguments: the kernel program by following its buffers through its segments, the reference by its run. -/
theorem algebraic : Cert.algebraic_KernelIdeal_ReferenceIdeal := by
  intro m ρ m' ρ' _ hagree
  refine ⟨fun c => Cert.ReferenceIdeal.Read.val_main_v92 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5)),
          fun c => Cert.ReferenceIdeal.Read.val_main_v136 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7)),
          ?_, ?_⟩
  · exact (θ_run Cert.KernelIdeal.defs _ _).mono
      (fun r h c => ⟨(h c).1.trans (Cert.KernelIdeal.Walk.out0 m ρ c), (h c).2.1.trans (Cert.KernelIdeal.Walk.out1 m ρ c), (h c).2.2⟩)
      (Cert.KernelIdeal.Named.run_named (F := Ideal) m ρ)
  · refine (θ_run Cert.ReferenceIdeal.defs _ _).mono (fun r h c => ⟨?_, ?_, (h c).2.2⟩)
      (Cert.ReferenceIdeal.Value.run (F := Ideal) m' ρ')
    · refine ((h c).1.trans (Cert.ReferenceIdeal.Read.val_main_v92_eq m' c)).trans ?_
      have e := hagree c
      rw [e.1, e.2.1, e.2.2.1, e.2.2.2.1, e.2.2.2.2.1, e.2.2.2.2.2.1]
    · refine ((h c).2.1.trans (Cert.ReferenceIdeal.Read.val_main_v136_eq m' c)).trans ?_
      have e := hagree c
      rw [e.1, e.2.1, e.2.2.1, e.2.2.2.1, e.2.2.2.2.2.2.1, e.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
